-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S2048x1024_S2048x1024 : S2048x1024.ShapeCasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignedDot.lean ====
/-
  What both programs compute, as one function of the two argument arrays: the product of `x` [8192, 4096] with the
  matrix of SIGNS of `w` [4096, 4096] — entry (r, c) is `∑ k, x[r, k] · s(w[k, c])`, where `s(w)` is `+1` where the
  comparison `w ≥ 0` holds and `-1` elsewhere (so `+1` at zero). The sum is over the extended reals.
-/
import Idealize.ShloMosaic.PureOps.Ideal
import Idealize.ShloMosaic.Lib.ValueIdx

noncomputable section

namespace Cert.SignedDot

open Idealize.ShloMosaic Idealize.ShloMosaic.ValueIdx

/-- The sign both programs apply to a weight: the `select` of the two literals `1.0` and `-1.0` by the ordered
    comparison `w ≥ 0.0`. The comparison and the three literals are left as the programs print them: both sides carry
    the same term, so none of them is ever evaluated. -/
def stepSign (w : Ideal .f32) : Ideal .f32 :=
  Scalar.select (FloatOps.cmpf .oge w (FloatOps.ofBits .f32 0x00000000#32 : Ideal .f32))
    (FloatOps.ofBits .f32 0x3F800000#32 : Ideal .f32) (FloatOps.ofBits .f32 0xBF800000#32 : Ideal .f32)

/-- Entry (r, c) of the result: row `r` of `x` against column `c` of the sign matrix. -/
def entry (X : (⟨2, ![8192, 4096]⟩ : Shape).Idx → EReal) (W : (⟨2, ![4096, 4096]⟩ : Shape).Idx → EReal)
    (r : Fin 8192) (c : Fin 4096) : EReal :=
  ∑ k : Fin 4096, X (ix2 r k) * stepSign (W (ix2 k c))

/-- The whole result array. -/
def signedDot (X : (⟨2, ![8192, 4096]⟩ : Shape).Idx → EReal) (W : (⟨2, ![4096, 4096]⟩ : Shape).Idx → EReal) :
    (⟨2, ![8192, 4096]⟩ : Shape).Idx → EReal :=
  fun i => entry X W (i 0) (i 1)

end Cert.SignedDot

end
-- ==== Proof.RefSum.lean ====
/-
  The reference computes the signed product: its `dot_general` contracts `x`'s second axis with the sign matrix's first,
  so its entry (r, c) is the sum over `k` of `x[r, k]` times the sign of `w[k, c]`, and the sign matrix is the `select`
  of the two broadcast literals by the comparison with the broadcast zero, element by element.
-/
import proofs.«101687_j90434831385367_2_alg».proof.Proof.Gen.ReferenceIdeal.Read
import proofs.«101687_j90434831385367_2_alg».proof.Proof.SignedDot

noncomputable section

namespace Cert.ReferenceIdeal.RefSum

open Cert.ReferenceIdeal Cert.ReferenceIdeal.Gen Cert.ReferenceIdeal.Read Idealize.ShloMosaic Idealize.ShloMosaic.ValueIdx
open Cert.SignedDot

/-- The reference's sign matrix at an index is the sign of the weight there. -/
theorem sign_apply (W : (⟨S4096x4096, .f32⟩ : BufTy).Contents (Elt Ideal)) (j : S4096x4096.Idx) :
    val_main_v3 (F := Ideal) W j = stepSign (W j) := by
  rw [val_main_v3_apply, val_main_v2_apply, val_main_v1_apply, val_main_v0_apply, val_main_call0_v0_apply,
    val_main_call0_v1_apply, val_main_cst_apply, val_main_cst_0_apply, val_main_cst_1_apply]
  rfl

/-- The reference's result is the signed product of its two arguments. -/
theorem ref_eq (X : (⟨S8192x4096, .f32⟩ : BufTy).Contents (Elt Ideal)) (W : (⟨S4096x4096, .f32⟩ : BufTy).Contents (Elt Ideal)) :
    val_main_v4 (F := Ideal) X W = signedDot X W := by
  funext i
  rw [val_main_v4_apply]
  show _ = ∑ k : Fin 4096, X (ix2 (n0 := 8192) (n1 := 4096) (i 0) k) * stepSign (W (ix2 (n0 := 4096) (n1 := 4096) k (i 1)))
  refine Finset.sum_congr rfl fun k _ => ?_
  have el : lidx_main_v4 i k = ix2 (n0 := 8192) (n1 := 4096) (i 0) k :=
    funext fun a => Fin.ext (by match a with | ⟨0, _⟩ => rfl | ⟨1, _⟩ => rfl)
  have er : ridx_main_v4 i k = ix2 (n0 := 4096) (n1 := 4096) k (i 1) :=
    funext fun a => Fin.ext (by match a with | ⟨0, _⟩ => rfl | ⟨1, _⟩ => rfl)
  rw [el, er]
  exact congrArg (fun z => X (ix2 (n0 := 8192) (n1 := 4096) (i 0) k) * z)
    (sign_apply W (ix2 (n0 := 4096) (n1 := 4096) k (i 1)))

end Cert.ReferenceIdeal.RefSum

end
-- ==== Proof.BlockTerm.lean ====
/-
  What one grid point's body adds to the output block, read at an entry. The body loads an x-block [2048, 512] and a
  w-block [512, 1024], takes the signs of the w-block, and adds the product of the x-block with those signs to what the
  output block held: entry (p, q) grows by `∑ l, xblk[p, l] · s(wblk[l, q])`. The two changes of float format in front
  of the product are the identity on the extended reals, and the matrix unit's accumulator operand is the zero block.
-/
import proofs.«101687_j90434831385367_2_alg».proof.Proof.Gen.KernelIdeal.Skeleton
import proofs.«101687_j90434831385367_2_alg».proof.Proof.SignedDot
import Idealize.ShloMosaic.Lib.ValueIdx
import Idealize.ShloMosaic.Lib.Pipeline.Value
import Idealize.ShloMosaic.PureOps.Ideal.Laws

noncomputable section

namespace Cert.KernelIdeal.BlockTerm

open Cert.KernelIdeal Cert.KernelIdeal.Gen Idealize.ShloMosaic Idealize.ShloMosaic.ValueIdx
open Cert.SignedDot

/-- The block the first point of a run stores before accumulating is zero everywhere. -/
theorem zero_block (y : S2048x1024.Idx) : k0_pay1 (F := Ideal) y = 0 := by
  show Ideal.ofBits .f32 0x00000000#32 = 0
  exact Ideal.ofBits_zero_f32

/-- The block product into the zero accumulator, at entry (p, q): the sum over the contracted axis `l` of
    `a[p, l] · b[l, q]` — the left operand is read at (p, l) and the right at (l, q), since the product contracts
    the left operand's second axis with the right operand's first. -/
theorem block_product_apply (a : FVec Ideal S2048x512 .bf16) (b : FVec Ideal S512x1024 .bf16) (p : Fin 2048) (q : Fin 1024) :
    matmul dot_S2048x512_S512x1024_S2048x1024_1_0_0_1_n_n none a b (constant (F := Ideal) S2048x1024 .f32 0x00000000#32) (ix2 p q)
      = ∑ l : Fin 512, a (ix2 p l) * b (ix2 l q) := by
  refine (Ideal.matmul_constant_zero_apply dot_S2048x512_S512x1024_S2048x1024_1_0_0_1_n_n none a b (ix2 p q)).trans ?_
  rw [← Equiv.sum_comp (contrEquiv1 dot_S2048x512_S512x1024_S2048x1024_1_0_0_1_n_n 512 rfl rfl).symm]
  refine Finset.sum_congr rfl fun l _ => ?_
  have hl := contrEquiv1_symm_val dot_S2048x512_S512x1024_S2048x1024_1_0_0_1_n_n 512 rfl rfl l
  have el : dot_S2048x512_S512x1024_S2048x1024_1_0_0_1_n_n.lhsIdx (ix2 p q)
      ((contrEquiv1 dot_S2048x512_S512x1024_S2048x1024_1_0_0_1_n_n 512 rfl rfl).symm l) = ix2 p l :=
    funext fun d => Fin.ext (by
      match d with
      | ⟨0, _⟩ =>
        show (dot_S2048x512_S512x1024_S2048x1024_1_0_0_1_n_n.lhsIdx (ix2 p q) _ 0).val = p.val
        unfold DotDims.lhsIdx
        rw [dif_neg (show ¬(0 : Fin S2048x512.rank) ∈ dot_S2048x512_S512x1024_S2048x1024_1_0_0_1_n_n.lhsBatch by decide),
          dif_pos (show (0 : Fin S2048x512.rank) ∈ dot_S2048x512_S512x1024_S2048x1024_1_0_0_1_n_n.lhsNonContracting by decide)]
        rfl
      | ⟨1, _⟩ =>
        exact (dot_S2048x512_S512x1024_S2048x1024_1_0_0_1_n_n.lhsIdx_val_of_single rfl (ix2 p q) _).trans hl)
  have er : dot_S2048x512_S512x1024_S2048x1024_1_0_0_1_n_n.rhsIdx (ix2 p q)
      ((contrEquiv1 dot_S2048x512_S512x1024_S2048x1024_1_0_0_1_n_n 512 rfl rfl).symm l) = ix2 l q :=
    funext fun d => Fin.ext (by
      match d with
      | ⟨0, _⟩ =>
        exact (dot_S2048x512_S512x1024_S2048x1024_1_0_0_1_n_n.rhsIdx_val_of_single rfl (ix2 p q) _).trans hl
      | ⟨1, _⟩ =>
        show (dot_S2048x512_S512x1024_S2048x1024_1_0_0_1_n_n.rhsIdx (ix2 p q) _ 1).val = q.val
        unfold DotDims.rhsIdx
        rw [dif_neg (show ¬(1 : Fin S512x1024.rank) ∈ dot_S2048x512_S512x1024_S2048x1024_1_0_0_1_n_n.rhsBatch by decide),
          dif_pos (show (1 : Fin S512x1024.rank) ∈ dot_S2048x512_S512x1024_S2048x1024_1_0_0_1_n_n.rhsNonContracting by decide)]
        rfl)
  rw [el, er]

/-- What a point's body leaves in the output block, entry by entry: what the block held, plus the x-block's row
    against the signs of the w-block's column. -/
theorem accumulate_apply (x0 : Vec Ideal S2048x512 .f32) (x1 : Vec Ideal S512x1024 .f32) (acc : Vec Ideal S2048x1024 .f32)
    (p : Fin 2048) (q : Fin 1024) :
    k0_pay2 x0 x1 acc (ix2 p q) = acc (ix2 p q) + ∑ l : Fin 512, x0 (ix2 p l) * stepSign (x1 (ix2 l q)) := by
  unfold k0_pay2
  refine (addf_apply _ _ _).trans ?_
  rw [shapeCast_self, block_product_apply]
  refine congrArg (acc (ix2 p q) + ·) (Finset.sum_congr rfl fun l _ => ?_)
  rfl

end Cert.KernelIdeal.BlockTerm

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.BlockedEntry.lean ====
/-
  An entry of the signed product, summed block by block. The contracted axis (4096 long) is cut into 8 consecutive
  blocks of 512; the sum over the whole axis is the sum over the blocks of each block's partial sum. To say "the
  entry `512·s + l` of the axis" without carrying a bound, the two arrays are extended by zero to all pairs of
  naturals; inside the arrays the extension is the array.
-/
import proofs.«101687_j90434831385367_2_alg».proof.Proof.SignedDot
import proofs.«101687_j90434831385367_2_alg».proof.Proof.LibBlockSum

noncomputable section

namespace Cert.SignedDot

open Idealize.ShloMosaic Idealize.ShloMosaic.ValueIdx

/-- `x` read at a pair of naturals: the array's entry inside [8192, 4096], zero outside. -/
def xAt (X : (⟨2, ![8192, 4096]⟩ : Shape).Idx → EReal) (r k : ℕ) : EReal :=
  if h : r < 8192 ∧ k < 4096 then X (ix2 (n0 := 8192) (n1 := 4096) ⟨r, h.1⟩ ⟨k, h.2⟩) else 0

/-- `w` read at a pair of naturals: the array's entry inside [4096, 4096], zero outside. -/
def wAt (W : (⟨2, ![4096, 4096]⟩ : Shape).Idx → EReal) (k c : ℕ) : EReal :=
  if h : k < 4096 ∧ c < 4096 then W (ix2 (n0 := 4096) (n1 := 4096) ⟨k, h.1⟩ ⟨c, h.2⟩) else 0

/-- Entry (r, c) of the signed product is the sum, over the 8 blocks `s` of the contracted axis, of the block's
    partial sum `∑ l < 512, x[r, 512·s + l] · s(w[512·s + l, c])`. Only a re-grouping of one finite sum: no
    finiteness of the entries is needed. -/
theorem entry_eq_blocks (X : (⟨2, ![8192, 4096]⟩ : Shape).Idx → EReal) (W : (⟨2, ![4096, 4096]⟩ : Shape).Idx → EReal)
    (r : Fin 8192) (c : Fin 4096) :
    ∑ s ∈ Finset.range 8, ∑ l : Fin 512, xAt X r.val (512 * s + l.val) * stepSign (wAt W (512 * s + l.val) c.val)
      = entry X W r c := by
  refine (Cert.Lib.sum_blocks 8 512 (fun k => xAt X r.val k * stepSign (wAt W k c.val))).trans ?_
  show ∑ k : Fin 4096, xAt X r.val k.val * stepSign (wAt W k.val c.val) = ∑ k : Fin 4096, X (ix2 r k) * stepSign (W (ix2 k c))
  refine Finset.sum_congr rfl fun k _ => ?_
  unfold xAt wAt
  rw [dif_pos ⟨r.isLt, k.isLt⟩, dif_pos ⟨k.isLt, c.isLt⟩]

end Cert.SignedDot

end
-- ==== Proof.Fold.lean ====
/-
  The kernel's result array is the signed product of its two arguments.

  The grid is 4 × 4 × 8: point `t = 32·i + 8·j + k` works on output block (i, j) — rows `2048·i …`, columns `1024·j …` —
  with x's block (i, k) — rows `2048·i …`, columns `512·k …` — and w's block (k, j) — rows `512·k …`, columns `1024·j …`.
  The 8 consecutive points of a run share the output block: the first stores zero and adds its block product, each later
  one adds its own, and the last writes the block back. So entry (r, c) of the result, which lies in output block
  (r / 2048, c / 1024) at place (r % 2048, c % 1024), ends as `0 + ∑ k < 8, ∑ l < 512, x[r, 512·k + l] · s(w[512·k + l, c])`:
  the sum over the whole contracted axis, taken block by block.
-/
import proofs.«101687_j90434831385367_2_alg».proof.Proof.Gen.KernelIdeal.Value
import proofs.«101687_j90434831385367_2_alg».proof.Proof.BlockTerm
import proofs.«101687_j90434831385367_2_alg».proof.Proof.BlockedEntry
import Idealize.ShloMosaic.Lib.Pipeline.Value

noncomputable section

namespace Cert.KernelIdeal.Fold

open Cert.KernelIdeal Cert.KernelIdeal.Gen Idealize.ShloMosaic Idealize.ShloMosaic.TcCoe Idealize.SL.Sem
open Idealize.ShloMosaic.ValueIdx
open Idealize.ShloMosaic.Pipeline (Dat)
open Cert.SignedDot

variable (m : (ℓ : Loc nD τ sig) → Buf (Elt Ideal) ℓ)

/-- The two input windows' block indices at point `t = 32·i + 8·j + k`: x's block is (i, k), w's block is (k, j).
    Decided over the 128 points of the grid. -/
theorem block_indices : ∀ t : Fin cfg0.N, win0_0.index t (0 : Fin 2) = t.val / 32 ∧ win0_0.index t (1 : Fin 2) = t.val % 8
    ∧ win0_1.index t (0 : Fin 2) = t.val % 8 ∧ win0_1.index t (1 : Fin 2) = t.val / 8 % 4 :=
  (by decide +kernel : ∀ t : Fin grid0.N, _)

/-- x's block at point `t`, entry (p, l), is `x[2048·(t / 32) + p, 512·(t % 8) + l]`. -/
theorem xblock_apply (c : Dev nD) (t : Fin cfg0.N) (p : Fin 2048) (l : Fin 512) :
    (iblk m c 0 t : Vec Ideal S2048x512 .f32) (ix2 p l)
      = xAt (m ((c : Thread nD τ).loc main_arg0)) (2048 * (t.val / 32) + p.val) (512 * (t.val % 8) + l.val) := by
  obtain ⟨e0, e1, -, -⟩ := block_indices t
  have ht : t.val < 128 := lt_of_lt_of_eq t.isLt (show cfg0.N = 128 from N_0)
  have hp := p.isLt
  have hl := l.isLt
  have hb : 2048 * (t.val / 32) + p.val < 8192 ∧ 512 * (t.val % 8) + l.val < 4096 := ⟨by omega, by omega⟩
  unfold iblk xAt
  rw [View.read_apply, dif_pos hb]
  show V m c main_arg0 _ = m (c.tc.loc main_arg0) _
  unfold V
  congr 1
  funext a
  apply Fin.ext
  match a with
  | ⟨0, _⟩ => show win0_0.index t 0 * 2048 + 1 * p.val = 2048 * (t.val / 32) + p.val; rw [e0]; omega
  | ⟨1, _⟩ => show win0_0.index t 1 * 512 + 1 * l.val = 512 * (t.val % 8) + l.val; rw [e1]; omega

/-- w's block at point `t`, entry (l, q), is `w[512·(t % 8) + l, 1024·(t / 8 % 4) + q]`. -/
theorem wblock_apply (c : Dev nD) (t : Fin cfg0.N) (l : Fin 512) (q : Fin 1024) :
    (iblk m c 1 t : Vec Ideal S512x1024 .f32) (ix2 l q)
      = wAt (m ((c : Thread nD τ).loc main_arg1)) (512 * (t.val % 8) + l.val) (1024 * (t.val / 8 % 4) + q.val) := by
  obtain ⟨-, -, e0, e1⟩ := block_indices t
  have ht : t.val < 128 := lt_of_lt_of_eq t.isLt (show cfg0.N = 128 from N_0)
  have hl := l.isLt
  have hq := q.isLt
  have hb : 512 * (t.val % 8) + l.val < 4096 ∧ 1024 * (t.val / 8 % 4) + q.val < 4096 := ⟨by omega, by omega⟩
  unfold iblk wAt
  rw [View.read_apply, dif_pos hb]
  show V m c main_arg1 _ = m (c.tc.loc main_arg1) _
  unfold V
  congr 1
  funext a
  apply Fin.ext
  match a with
  | ⟨0, _⟩ => show win0_1.index t 0 * 512 + 1 * l.val = 512 * (t.val % 8) + l.val; rw [e0]; omega
  | ⟨1, _⟩ => show win0_1.index t 1 * 1024 + 1 * q.val = 1024 * (t.val / 8 % 4) + q.val; rw [e1]; omega

/-- What point `n` adds to the output block at place `y` = (p, q): its x-block's row `p` against the signs of its
    w-block's column `q`, written over the whole arrays. -/
def addend (c : Dev nD) (n : ℕ) (y : S2048x1024.Idx) : EReal :=
  ∑ l : Fin 512, xAt (m ((c : Thread nD τ).loc main_arg0)) (2048 * (n / 32) + (y 0).val) (512 * (n % 8) + l.val)
    * stepSign (wAt (m ((c : Thread nD τ).loc main_arg1)) (512 * (n % 8) + l.val) (1024 * (n / 8 % 4) + (y 1).val))

/-- The addend with its row, block number and column named. -/
theorem addend_eq (c : Dev nD) (n : ℕ) (y : S2048x1024.Idx) (r s col : ℕ)
    (h0 : 2048 * (n / 32) + (y 0).val = r) (h1 : n % 8 = s) (h2 : 1024 * (n / 8 % 4) + (y 1).val = col) :
    addend m c n y = ∑ l : Fin 512, xAt (m ((c : Thread nD τ).loc main_arg0)) r (512 * s + l.val)
      * stepSign (wAt (m ((c : Thread nD τ).loc main_arg1)) (512 * s + l.val) col) := by
  subst h0 h1 h2
  rfl

/-- A point's body leaves in the output block what it held plus the point's addend. -/
theorem step_apply (c : Dev nD) (n : ℕ) (h : n < cfg0.N) (acc : Vec Ideal S2048x1024 .f32) (y : S2048x1024.Idx) :
    Value.step2 m c n h acc y = acc y + addend m c n y := by
  obtain ⟨p, q, rfl⟩ : ∃ (p : Fin 2048) (q : Fin 1024), y = ix2 p q := ⟨y 0, y 1, eq_ix2 y⟩
  refine (BlockTerm.accumulate_apply (iblk m c 0 ⟨n, h⟩) (iblk m c 1 ⟨n, h⟩) acc p q).trans ?_
  show _ = acc (ix2 p q) + ∑ l : Fin 512, xAt (m ((c : Thread nD τ).loc main_arg0)) (2048 * (n / 32) + p.val) (512 * (n % 8) + l.val)
    * stepSign (wAt (m ((c : Thread nD τ).loc main_arg1)) (512 * (n % 8) + l.val) (1024 * (n / 8 % 4) + q.val))
  refine congrArg (acc (ix2 p q) + ·) (Finset.sum_congr rfl fun l _ => ?_)
  exact congrArg₂ (fun a b => a * stepSign b) (xblock_apply m c ⟨n, h⟩ p l) (wblock_apply m c ⟨n, h⟩ l q)

/-- The output block after the 8 points of the run starting at `b`: the sum of their addends (the zero the first
    point stores drops out). -/
theorem fold_apply (c : Dev nD) (b : ℕ) (h : b + 7 < cfg0.N) (y : S2048x1024.Idx) :
    Pipeline.accAt (Value.reset2 m c) (Value.step2 m c) b 7 h y = ∑ s ∈ Finset.range 8, addend m c (b + s) y := by
  have key := Pipeline.accAt_add_apply (ι := S2048x1024.Idx) (β := EReal) (Value.reset2 m c) (Value.step2 m c)
    (fun _ => (0 : EReal)) (addend m c) b 7
    (fun hb y => (step_apply m c b hb (k0_pay1 (F := Ideal)) y).trans (by rw [BlockTerm.zero_block]))
    (fun n hn acc y _ _ => step_apply m c n hn acc y) 7 le_rfl h y
  rw [key, zero_add]

/-- The array the kernel leaves is the signed product of its two arguments. -/
theorem G2_eq (c : Dev nD) :
    Value.G2 m c = signedDot (m ((c : Thread nD τ).loc main_arg0)) (m ((c : Thread nD τ).loc main_arg1)) := by
  funext i
  have hi0 : (i 0).val < 8192 := (i 0).isLt
  have hi1 : (i 1).val < 4096 := (i 1).isLt
  have hN : cfg0.N = 128 := N_0
  have hr : Value.run2Of i = 4 * ((i 0).val / 2048) + (i 1).val / 1024 := by
    show 4 * ((i 0).val / 2048 - 0) + 1 * ((i 1).val / 1024 - 0) = _
    omega
  unfold Value.G2
  rw [dif_pos (by rw [hr, hN]; omega)]
  rw [fold_apply]
  show (∑ s ∈ Finset.range 8, addend m c (8 * Value.run2Of i + s) (Value.loc2Of i) : EReal)
    = entry (m ((c : Thread nD τ).loc main_arg0)) (m ((c : Thread nD τ).loc main_arg1)) (i 0) (i 1)
  refine (Finset.sum_congr rfl fun s hs => ?_).trans (entry_eq_blocks _ _ (i 0) (i 1))
  have hs' : s < 8 := Finset.mem_range.mp hs
  have a0 : 2048 * ((8 * Value.run2Of i + s) / 32) + (Value.loc2Of i 0).val = (i 0).val := by
    show 2048 * ((8 * Value.run2Of i + s) / 32) + (i 0).val % 2048 = (i 0).val
    rw [hr]; omega
  have a1 : (8 * Value.run2Of i + s) % 8 = s := by omega
  have a2 : 1024 * ((8 * Value.run2Of i + s) / 8 % 4) + (Value.loc2Of i 1).val = (i 1).val := by
    show 1024 * ((8 * Value.run2Of i + s) / 8 % 4) + (i 1).val % 1024 = (i 1).val
    rw [hr]; omega
  exact addend_eq m c _ _ _ _ _ a0 a1 a2

end Cert.KernelIdeal.Fold

end
-- ==== Proof.lean ====
/-
  A dense layer with binarized weights: `x` [8192, 4096] times the matrix of SIGNS of `w` [4096, 4096], where the sign
  of a weight is `+1` where `w ≥ 0` holds and `-1` elsewhere.

  The kernel works tile by tile on a 4 × 4 × 8 grid: output block (i, j) of 2048 × 1024 entries is zeroed at the first
  of 8 consecutive points and each of the 8 points adds the product of x's block (i, k) [2048, 512] with the signs of w's
  block (k, j) [512, 1024]; the block is written back after the last. The reference takes the signs of the whole `w`
  and contracts once over all 4096 indices. On the extended reals both narrowings to the matrix unit's input format are
  the identity, so entry (r, c) is, on the kernel's side, `0 + ∑ k < 8, ∑ l < 512, x[r, 512·k + l] · s(w[512·k + l, c])`
  and, on the reference's side, `∑ k < 4096, x[r, k] · s(w[k, c])`: one finite sum, grouped in two ways. Addition of
  extended reals is commutative and associative, which is all a re-grouping needs, so the inputs' finiteness is never
  used: the two results agree entry by entry for all inputs.

  The parts: `SignedDot` states the result as one function of the two arrays; `RefSum` shows the reference computes it;
  `BlockTerm` reads what one grid point adds to an entry; `LibBlockSum` and `BlockedEntry` re-group the sum; `Fold` shows
  the kernel's array is that function. Each program's termination, absence of faults and unchanged arguments come with
  its run. The idealized kernel differs from the kernel by no rewrite, so there is nothing to preserve.
-/
import proofs.«101687_j90434831385367_2_alg».proof.Defs
import proofs.«101687_j90434831385367_2_alg».proof.Proof.Gen.Kernel.Frame
import proofs.«101687_j90434831385367_2_alg».proof.Proof.Gen.KernelIdeal.Value
import proofs.«101687_j90434831385367_2_alg».proof.Proof.Gen.Pre_finite_inputs
import proofs.«101687_j90434831385367_2_alg».proof.Proof.Gen.ReferenceIdeal.Run
import proofs.«101687_j90434831385367_2_alg».proof.Proof.RefSum
import proofs.«101687_j90434831385367_2_alg».proof.Proof.Fold
import Idealize.ShloMosaic.Adequacy
import Idealize.ShloMosaic.Init

noncomputable section

namespace Cert.Proof

open Idealize.ShloMosaic Idealize.SL.Sem

/-- The idealized kernel's run ends, without a fault, with its arguments unchanged. -/
theorem frame_KernelIdeal : frame_KernelIdeal := fun m ρ _ =>
  (θ_run Cert.KernelIdeal.defs _ _).mono (fun _ h c => (h c).2) (Cert.KernelIdeal.Value.run (F := Ideal) m ρ)

/-- The idealized reference's run ends, without a fault, with its arguments unchanged. -/
theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on `x` and `w`, the two idealized programs end with equal result arrays: the
    reference's contraction is the signed product (`RefSum.ref_eq`), and so is the array the kernel's 16 runs of 8
    accumulating points leave (`Fold.G2_eq`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v4_eq, Cert.ReferenceIdeal.RefSum.ref_eq]
  exact (Cert.KernelIdeal.Fold.G2_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
